-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192x751 : Shape := ⟨2, ![8192, 751]⟩
abbrev S751x2048 : Shape := ⟨2, ![751, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x751 : S_.BroadcastsInDim S8192x751 (![] : Fin 0 → Fin S8192x751.rank)
  reducesTo_S8192x751_S_d0_1 : S8192x751.ReducesTo [0, 1] S_
  bcast_S_S751x2048 : S_.BroadcastsInDim S751x2048 (![] : Fin 0 → Fin S751x2048.rank)
  reducesTo_S751x2048_S_d0_1 : S751x2048.ReducesTo [0, 1] S_

variable [Facts]

def fn {F : FTy → Type} [FloatOps F] (main_arg0 : FVec F S8192x2048 .f32) (main_arg1 : FVec F S8192x751 .f32) (main_arg2 : FVec F S751x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x751 .f32 := Host.absf main_arg1
  let main_cst_0 : FVec F S_ .f32 := constant S_ .f32 0x7F800000#32
  let main_v5 : FVec F S8192x751 .f32 := broadcastInDim S8192x751 ![] bcast_S_S8192x751 main_cst_0
  let main_v6 : IVec S8192x751 1 := cmpf .olt main_v4 main_v5
  let main_c_1 : IVec S_ 1 := constantI S_ 1 1#1
  let main_v7 : IVec S_ 1 := (fun x v => Host.reduce IntOp.andi x v reducesTo_S8192x751_S_d0_1 h_S_) main_v6 main_c_1
  let main_v8 : IVec S_ 1 := andi main_v3 main_v7
  let main_v9 : FVec F S751x2048 .f32 := Host.absf main_arg2
  let main_cst_2 : FVec F S_ .f32 := constant S_ .f32 0x7F800000#32
  let main_v10 : FVec F S751x2048 .f32 := broadcastInDim S751x2048 ![] bcast_S_S751x2048 main_cst_2
  let main_v11 : IVec S751x2048 1 := cmpf .olt main_v9 main_v10
  let main_c_3 : IVec S_ 1 := constantI S_ 1 1#1
  let main_v12 : IVec S_ 1 := (fun x v => Host.reduce IntOp.andi x v reducesTo_S751x2048_S_d0_1 h_S_) main_v11 main_c_3
  let main_v13 : IVec S_ 1 := andi main_v8 main_v12
  main_v13
-- ==== Kernel.lean ====
abbrev S8192x2048 : Shape := ⟨2, ![8192, 2048]⟩
abbrev S8192x751 : Shape := ⟨2, ![8192, 751]⟩
abbrev S751x2048 : Shape := ⟨2, ![751, 2048]⟩
abbrev S_ : Shape := ⟨0, ![]⟩
abbrev S8192x768 : Shape := ⟨2, ![8192, 768]⟩
abbrev S768x2048 : Shape := ⟨2, ![768, 2048]⟩
abbrev S8192x1 : Shape := ⟨2, ![8192, 1]⟩
abbrev S512x2048 : Shape := ⟨2, ![512, 2048]⟩
abbrev S512x768 : Shape := ⟨2, ![512, 768]⟩
abbrev S512x1 : Shape := ⟨2, ![512, 1]⟩
abbrev S512 : Shape := ⟨1, ![512]⟩

abbrev nBuf : Space → Nat
  | .hbm => 16
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x751, .f32⟩
  | .hbm, ⟨2, _⟩ => ⟨S751x2048, .f32⟩
  | .hbm, ⟨3, _⟩ => ⟨S8192x751, .bf16⟩
  | .hbm, ⟨4, _⟩ => ⟨S751x2048, .bf16⟩
  | .hbm, ⟨5, _⟩ => ⟨S_, .i32⟩
  | .hbm, ⟨6, _⟩ => ⟨S_, .bf16⟩
  | .hbm, ⟨7, _⟩ => ⟨S8192x768, .bf16⟩
  | .hbm, ⟨8, _⟩ => ⟨S_, .i32⟩
  | .hbm, ⟨9, _⟩ => ⟨S_, .bf16⟩
  | .hbm, ⟨10, _⟩ => ⟨S768x2048, .bf16⟩
  | .hbm, ⟨11, _⟩ => ⟨S8192x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x768, .bf16⟩
  | .local _ .vmem, ⟨3, _⟩ => ⟨S512x768, .bf16⟩
  | .local _ .vmem, ⟨4, _⟩ => ⟨S768x2048, .bf16⟩
  | .local _ .vmem, ⟨5, _⟩ => ⟨S512x1, .f32⟩
  | .local _ .vmem, ⟨6, _⟩ => ⟨S512x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  pads_S8192x751_S8192x768_000_0170 : S8192x751.Pads (![0, 0] : Fin 2 → Nat) ![0, 17] ![0, 0] S8192x768
  h_S_ : 0 < S_.numel
  pads_S751x2048_S768x2048_0170_000 : S751x2048.Pads (![0, 0] : Fin 2 → Nat) ![17, 0] ![0, 0] S768x2048
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x2048_S768x2048_0_0 : ∀ a, (![0, 0] : Fin 2 → Nat) a + S768x2048.size a ≤ S768x2048.size a
  h_S768x2048 : 0 < S768x2048.numel
  shapeCasts_S768x2048_S768x2048 : S768x2048.ShapeCasts S768x2048
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  reducesTo_S8192x1_S_d0_1 : S8192x1.ReducesTo [0, 1] S_
  dot_S512x768_S768x2048_S512x2048_1_0_0_1_n_n_wf : DotDims.WF S512x768 S768x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S8192x768.size a
  hwx0_1 : ∀ i : grid0.Coords, EltTy.bits .bf16 = 32 ∨ (Rect.block (s := S8192x768) S512x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x2048.size a ≤ S768x2048.size a
  hwx0_2 : ∀ i : grid0.Coords, EltTy.bits .bf16 = 32 ∨ (Rect.block (s := S768x2048) S768x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)

variable [Facts₀]

def dot_S512x768_S768x2048_S512x2048_1_0_0_1_n_n : DotDims S512x768 S768x2048 S512x2048 where
  lhsContracting := [1]
  rhsContracting := [0]
  lhsNonContracting := [0]
  rhsNonContracting := [1]
  lhsBatch := []
  rhsBatch := []
  wf := dot_S512x768_S768x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S768x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8192x751 : Shape := ⟨2, ![8192, 751]⟩
abbrev S751x2048 : Shape := ⟨2, ![751, 2048]⟩
abbrev S_ : Shape := ⟨0, ![]⟩
abbrev S8192 : Shape := ⟨1, ![8192]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x751, .f32⟩
  | .hbm, ⟨2, _⟩ => ⟨S751x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_cst_3 : Ref sig .tc := ⟨.hbm, 18, rfl⟩
abbrev main_v6 : Ref sig .tc := ⟨.hbm, 19, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  bcast_S_S8192 : S_.BroadcastsInDim S8192 (![] : Fin 0 → Fin S8192.rank)
  reducesTo_S8192_S_d0 : S8192.ReducesTo [0] S_
  dot_S8192x751_S751x2048_S8192x2048_1_0_0_1_n_n_wf : DotDims.WF S8192x751 S751x2048 S8192x2048 [1] [0] [0] [1] [] []

variable [Facts₀]

def dot_S8192x751_S751x2048_S8192x2048_1_0_0_1_n_n : DotDims S8192x751 S751x2048 S8192x2048 where
  lhsContracting := [1]
  rhsContracting := [0]
  lhsNonContracting := [0]
  rhsNonContracting := [1]
  lhsBatch := []
  rhsBatch := []
  wf := dot_S8192x751_S751x2048_S8192x2048_1_0_0_1_n_n_wf

class Facts : Prop extends Facts₀ where

variable [Facts]
-- ==== Proof.LossSpec.lean ====
/-
  The centre loss as one function of its three arrays, over the extended reals. For features `x : [B, D]`, label
  rows `L : [B, K]` and class centres `C : [K, D]`: row `b`'s centre is the product row `∑ₖ L(b,k)·C(k,·)`, its squared
  distance `∑ⱼ (x(b,j) − centre(b,j))²`, that distance clipped into `[lo, hi]` (`min hi (max lo ·)`), and the loss the
  sum of the clipped distances over the rows divided by the row count. The three constants are kept as the words the
  programs spell them with: both programs use the same words, so they are never evaluated.

  Also here: sums over the indices of a one-axis array and of a one-column matrix as sums over the rows; and a sum over `K'` terms that vanish from `K` on is the sum of the first `K` — the one law the class axis
  padded with zeros from `K` to `K'` needs. It uses `x + 0 = x` only, so it holds for every commutative monoid, the
  extended reals with their infinities included.
-/
import Idealize.ShloMosaic.Lib.ValueIdx
import Idealize.ShloMosaic.PureOps.Ideal.Laws

noncomputable section

open scoped BigOperators

namespace CenterLoss

open Idealize.ShloMosaic Idealize.ShloMosaic.ValueIdx

/-- The lower clip bound, the `f32` nearest `1e-12`. -/
def lo : EReal := Ideal.ofBits .f32 0x2B8CBCCC#32
/-- The upper clip bound, the `f32` nearest `1e12`. -/
def hi : EReal := Ideal.ofBits .f32 0x5368D4A5#32
/-- The divisor of the mean, `8192` as an `f32`. -/
def count : EReal := Ideal.ofBits .f32 0x46000000#32

variable {B K D : ℕ}

/-- Row `b`'s centre at feature `j`: the label row times the centres' column. -/
def centre (L : (⟨2, ![B, K]⟩ : Shape).Idx → EReal) (C : (⟨2, ![K, D]⟩ : Shape).Idx → EReal) (b : Fin B) (j : Fin D) : EReal :=
  ∑ k : Fin K, L (ix2 b k) * C (ix2 k j)

/-- Row `b`'s squared distance to its centre. -/
def sqDist (x : (⟨2, ![B, D]⟩ : Shape).Idx → EReal) (L : (⟨2, ![B, K]⟩ : Shape).Idx → EReal)
    (C : (⟨2, ![K, D]⟩ : Shape).Idx → EReal) (b : Fin B) : EReal :=
  ∑ j : Fin D, (x (ix2 b j) - centre L C b j) * (x (ix2 b j) - centre L C b j)

/-- That distance clipped into `[lo, hi]`. -/
def clipped (x : (⟨2, ![B, D]⟩ : Shape).Idx → EReal) (L : (⟨2, ![B, K]⟩ : Shape).Idx → EReal)
    (C : (⟨2, ![K, D]⟩ : Shape).Idx → EReal) (b : Fin B) : EReal :=
  min hi (max lo (sqDist x L C b))

/-- The loss: the clipped distances summed over the rows, divided by the row count. -/
def meanLoss (x : (⟨2, ![B, D]⟩ : Shape).Idx → EReal) (L : (⟨2, ![B, K]⟩ : Shape).Idx → EReal)
    (C : (⟨2, ![K, D]⟩ : Shape).Idx → EReal) : EReal :=
  Ideal.div (∑ b : Fin B, clipped x L C b) count

/-- A sum of `K'` terms that agree with `f` below `K` and vanish from `K` on is the sum of `f`. -/
theorem sum_zero_padded {M : Type*} [AddCommMonoid M] {K K' : ℕ} (hK : K ≤ K') (f : Fin K → M) (g : Fin K' → M)
    (hin : ∀ (k : Fin K') (h : k.val < K), g k = f ⟨k.val, h⟩) (hout : ∀ k : Fin K', K ≤ k.val → g k = 0) :
    ∑ k : Fin K', g k = ∑ k : Fin K, f k := by
  have hg : ∀ k : Fin K', g k = if h : k.val < K then f ⟨k.val, h⟩ else 0 := fun k => by
    by_cases h : k.val < K
    · rw [dif_pos h]; exact hin k h
    · rw [dif_neg h]; exact hout k (Nat.le_of_not_lt h)
  have hf : ∀ k : Fin K, f k = if h : k.val < K then f ⟨k.val, h⟩ else 0 := fun k => by rw [dif_pos k.isLt]
  have key : ∀ N, (∑ k : Fin N, (if h : k.val < K then f ⟨k.val, h⟩ else 0))
      = ∑ n ∈ Finset.range N, (if h : n < K then f ⟨n, h⟩ else 0) := fun N =>
    (Finset.sum_range (fun n => if h : n < K then f ⟨n, h⟩ else 0)).symm
  calc ∑ k : Fin K', g k = ∑ k : Fin K', (if h : k.val < K then f ⟨k.val, h⟩ else 0) :=
        Finset.sum_congr rfl fun k _ => hg k
    _ = ∑ n ∈ Finset.range K', (if h : n < K then f ⟨n, h⟩ else 0) := key K'
    _ = ∑ n ∈ Finset.range K, (if h : n < K then f ⟨n, h⟩ else 0) :=
        (Finset.sum_subset (Finset.range_subset_range.2 hK) fun n _ hn => dif_neg (by simpa using hn)).symm
    _ = ∑ k : Fin K, (if h : k.val < K then f ⟨k.val, h⟩ else 0) := (key K).symm
    _ = ∑ k : Fin K, f k := Finset.sum_congr rfl fun k _ => (hf k).symm

/-- A sum over the indices of a one-axis array is the sum over its one coordinate. -/
theorem sum_idx1 {M : Type*} [AddCommMonoid M] {n : ℕ} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- A sum over the indices of a one-column matrix is the sum over its rows. -/
theorem sum_column {M : Type*} [AddCommMonoid M] {n : ℕ} (f : (⟨2, ![n, 1]⟩ : Shape).Idx → M) :
    ∑ i, f i = ∑ a : Fin n, f (ix2 a (0 : Fin 1)) := by
  rw [sum_idx2]
  exact Finset.sum_congr rfl fun a _ => Fin.sum_univ_one _

end CenterLoss

end
-- ==== Proof.RefLoss.lean ====
/-
  The reference's result is the centre loss of its arguments. Read one operation at a time: the product of the label
  rows with the centres at `(b, j)` is the sum over the `751` classes; the difference with the features, squared and
  summed along each row from the initial value zero, is the row's squared distance; clipping is `min hi (max lo ·)`
  with the bounds broadcast from scalars; the sum over all rows from zero, divided by the row count, is the loss.
-/
import proofs.«120704_j32701880992422_2_alg».proof.Proof.Gen.ReferenceIdeal.Read
import proofs.«120704_j32701880992422_2_alg».proof.Proof.LossSpec

noncomputable section

namespace Cert.ReferenceIdeal.RefLoss

open Cert.ReferenceIdeal Cert.ReferenceIdeal.Gen Cert.ReferenceIdeal.Read Idealize.ShloMosaic Idealize.ShloMosaic.ValueIdx

/-- Row `b` of the clipped distances the reference sums. -/
theorem row_eq (x : FVec Ideal S8192x2048 .f32) (L : FVec Ideal S8192x751 .f32) (C : FVec Ideal S751x2048 .f32) (b : Fin 8192) :
    val_main_v4 (F := Ideal) x L C (ix1 b) = CenterLoss.clipped x L C b := by
  have hl : ∀ (j : Fin 2048) (k : Fin 751), lidx_main_v0 (ix2 b j) k = ix2 b k := fun j k =>
    funext fun a => Fin.ext (by match a with | ⟨0, _⟩ => rfl | ⟨1, _⟩ => rfl)
  have hr : ∀ (j : Fin 2048) (k : Fin 751), ridx_main_v0 (ix2 b j) k = ix2 k j := fun j k =>
    funext fun a => Fin.ext (by match a with | ⟨0, _⟩ => rfl | ⟨1, _⟩ => rfl)
  have hi : ∀ j : Fin 2048, idx_main_v3 (ix1 b) j = ix2 b j := fun j =>
    funext fun a => Fin.ext (by match a with | ⟨0, _⟩ => rfl | ⟨1, _⟩ => rfl)
  rw [val_main_v4_apply, val_main_call0_v4_apply, val_main_call0_v2_apply, val_main_call0_v1_apply, val_main_v3_apply]
  simp only [hi, val_main_v2_apply, val_main_v1_apply, val_main_v0_apply, hl, hr, val_main_call0_v3_apply,
    val_main_cst_1_apply, val_main_call0_v0_apply, val_main_cst_0_apply, val_main_cst_apply, Ideal.minimumf_def,
    Ideal.maximumf_def, Ideal.mulf_def, Ideal.subf_def, Ideal.ofBits_def, Ideal.ofBits_zero_f32, zero_add]
  rfl

/-- The reference's result, at its one index, is the loss. -/
theorem result_eq (x : FVec Ideal S8192x2048 .f32) (L : FVec Ideal S8192x751 .f32) (C : FVec Ideal S751x2048 .f32) :
    val_main_v6 (F := Ideal) x L C = fun _ => CenterLoss.meanLoss x L C := by
  funext i
  rw [val_main_v6_apply, val_main_v5_apply, CenterLoss.sum_idx1]
  simp only [row_eq, val_main_cst_2_apply, val_main_cst_3_apply, Ideal.hostDivf_def, Ideal.ofBits_def,
    Ideal.ofBits_zero_f32, zero_add]
  rfl

end Cert.ReferenceIdeal.RefLoss

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.BodyLoss.lean ====
/-
  What the kernel body stores, read at a row. From a block of `512` feature rows, the matching block of label rows
  (their class axis padded to `768`) and the whole padded centres, the body forms the product of the label block with
  the centres into a zero accumulator, subtracts it from the features, squares, sums each row, keeps the sum as a
  one-column matrix and clips it. So entry `(p, 0)` of what it stores is the clipped squared distance of row `p` of
  the block, over the `768` padded classes.
-/
import proofs.«120704_j32701880992422_2_alg».proof.Proof.Gen.KernelIdeal.Skeleton
import proofs.«120704_j32701880992422_2_alg».proof.Proof.LibLayout
import proofs.«120704_j32701880992422_2_alg».proof.Proof.LibMatmulIx
import proofs.«120704_j32701880992422_2_alg».proof.Proof.LossSpec
import Idealize.ShloMosaic.Lib.Pipeline.Value

noncomputable section

namespace Cert.KernelIdeal.Body

open Cert.KernelIdeal Cert.KernelIdeal.Gen Idealize.ShloMosaic Idealize.ShloMosaic.ValueIdx

/-- The body's product at `(p, j)`: row `p` of the label block against column `j` of the centres. -/
theorem product_apply (v0 : FVec Ideal S512x768 .bf16) (v2 : FVec Ideal S768x2048 .bf16) (p : Fin 512) (j : Fin 2048) :
    matmul dot_S512x768_S768x2048_S512x2048_1_0_0_1_n_n none v0 v2 (constant (F := Ideal) S512x2048 .f32 0x00000000#32) (ix2 p j)
      = CenterLoss.centre v0 v2 p j :=
  MatmulIx.matmul_zero_ix2 dot_S512x768_S768x2048_S512x2048_1_0_0_1_n_n rfl rfl
    (fun i q => by
      unfold DotDims.lhsIdx
      rw [dif_neg (show ¬(0 : Fin S512x768.rank) ∈ dot_S512x768_S768x2048_S512x2048_1_0_0_1_n_n.lhsBatch by decide),
        dif_pos (show (0 : Fin S512x768.rank) ∈ dot_S512x768_S768x2048_S512x2048_1_0_0_1_n_n.lhsNonContracting by decide)]
      rfl)
    (fun i q => dot_S512x768_S768x2048_S512x2048_1_0_0_1_n_n.lhsIdx_val_of_single rfl i q)
    (fun i q => dot_S512x768_S768x2048_S512x2048_1_0_0_1_n_n.rhsIdx_val_of_single rfl i q)
    (fun i q => by
      unfold DotDims.rhsIdx
      rw [dif_neg (show ¬(1 : Fin S768x2048.rank) ∈ dot_S512x768_S768x2048_S512x2048_1_0_0_1_n_n.rhsBatch by decide),
        dif_pos (show (1 : Fin S768x2048.rank) ∈ dot_S512x768_S768x2048_S512x2048_1_0_0_1_n_n.rhsNonContracting by decide)]
      rfl)
    none v0 v2 p j

/-- Entry `(p, 0)` of what the body stores: the clipped squared distance of row `p` of its blocks. -/
theorem stored_apply (v0 : FVec Ideal S512x768 .bf16) (v2 : FVec Ideal S768x2048 .bf16) (v5 : FVec Ideal S512x2048 .f32)
    (p : Fin 512) (u : Fin 1) :
    k0_pay1 (F := Ideal) v0 v2 v5 (ix2 p u) = CenterLoss.clipped v5 v0 v2 p := by
  unfold k0_pay1
  rw [shapeCast_self, shapeCast_self]
  show min (Ideal.ofBits .f32 0x5368D4A5#32) (max (Ideal.ofBits .f32 0x2B8CBCCC#32) (shapeCast S512x1 _ shapeCasts_S512_S512x1 (ix2 p u))) = _
  refine congrArg (fun z => min (Ideal.ofBits .f32 0x5368D4A5#32) (max (Ideal.ofBits .f32 0x2B8CBCCC#32) z)) ?_
  refine (Cert.Attn.Layout.shapeCast_a_a1_apply _ shapeCasts_S512_S512x1 p u).trans ?_
  refine (Cert.Attn.Layout.rowSum_apply _ reduces_S512x2048_S512 (.inl rfl) rfl p).trans ?_
  refine Finset.sum_congr rfl fun j _ => ?_
  show (v5 (ix2 p j) - _) * (v5 (ix2 p j) - _) = _
  rw [product_apply v0 v2 p j]

end Cert.KernelIdeal.Body

end
-- ==== Proof.Entry.lean ====
/-
  What the kernel's region finds in the two arrays the host prepares for it. Before the region the host narrows the
  labels and the centres to bf16 (no change of value over the extended reals) and pads each with the converted integer
  zero: the labels along the class axis from `751` to `768` columns, the centres from `751` to `768` rows. Read at an
  index, each padded array is the argument where the class is below `751` and zero from there on.
-/
import proofs.«120704_j32701880992422_2_alg».proof.Proof.Gen.KernelIdeal.Frame
import Idealize.ShloMosaic.Lib.KernelVsHost
import Idealize.ShloMosaic.Lib.StableHlo.Run
import Idealize.ShloMosaic.Lib.ValueIdx

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]
variable (m : (ℓ : Loc nD τ sig) → Buf (Elt F) ℓ)

/-- The label array the region stages: the labels narrowed and padded with zero columns. -/
theorem labels_entry (c : Dev nD) :
    (V m c main_v2 : FVec F S8192x768 .bf16) = pad S8192x768 ![0, 0] ![0, 17] ![0, 0]
      (truncf .bf16 (m ((c : Thread nD τ).loc main_arg1)) bitsLt_bf16_f32)
      (sitofp .bf16 (constantI S_ 32 0#32) : FVec F S_ .bf16) pads_S8192x751_S8192x768_000_0170 h_S_ := by
  dsimp only [V, V0]
  simp only [hostOps0, hostOps0_1, hostOps0_2, hostOps0_3, List.flatten_cons, List.flatten_nil, List.append_nil,
    List.cons_append, List.nil_append]
  after_results; rfl

/-- The centres array the region stages: the centres narrowed and padded with zero rows. -/
theorem centres_entry (c : Dev nD) :
    (V m c main_v3 : FVec F S768x2048 .bf16) = pad S768x2048 ![0, 0] ![17, 0] ![0, 0]
      (truncf .bf16 (m ((c : Thread nD τ).loc main_arg2)) bitsLt_bf16_f32)
      (sitofp .bf16 (constantI S_ 32 0#32) : FVec F S_ .bf16) pads_S751x2048_S768x2048_0170_000 h_S_ := by
  dsimp only [V, V0]
  simp only [hostOps0, hostOps0_1, hostOps0_2, hostOps0_3, List.flatten_cons, List.flatten_nil, List.append_nil,
    List.cons_append, List.nil_append]
  after_results; rfl

/-- The padded labels at `(b, k)`: the label where `k` is a class, zero in the padding. -/
theorem padded_labels_apply (Lm : FVec Ideal S8192x751 .f32) (b : Fin 8192) (k : Fin 768) :
    pad S8192x768 ![0, 0] ![0, 17] ![0, 0] (truncf .bf16 Lm bitsLt_bf16_f32 : FVec Ideal S8192x751 .bf16)
      (sitofp .bf16 (constantI S_ 32 0#32) : FVec Ideal S_ .bf16) pads_S8192x751_S8192x768_000_0170 h_S_ (ix2 b k)
      = if h : k.val < 751 then Lm (ix2 b ⟨k.val, h⟩) else 0 := by
  by_cases h : k.val < 751
  · rw [dif_pos h]
    exact pad_apply_of_inside _ _ _ _ _ pads_S8192x751_S8192x768_000_0170 h_S_ (ix2 b k) (ix2 b ⟨k.val, h⟩) (fun a => by
      match a with
      | ⟨0, _⟩ => show b.val = 0 + b.val * (0 + 1); omega
      | ⟨1, _⟩ => show k.val = 0 + k.val * (0 + 1); omega)
  · rw [dif_neg h]
    refine (pad_apply_of_not_inside _ _ _ _ _ pads_S8192x751_S8192x768_000_0170 h_S_ (ix2 b k) (1 : Fin 2) ?_).trans ?_
    · show ¬(0 ≤ k.val ∧ (k.val - 0) % (0 + 1) = 0 ∧ (k.val - 0) / (0 + 1) < 751); omega
    · show ((((0#32 : BitVec 32).toInt : ℤ) : ℝ) : EReal) = 0; simp

/-- The padded centres at `(k, j)`: the centre where `k` is a class, zero in the padding. -/
theorem padded_centres_apply (Cm : FVec Ideal S751x2048 .f32) (k : Fin 768) (j : Fin 2048) :
    pad S768x2048 ![0, 0] ![17, 0] ![0, 0] (truncf .bf16 Cm bitsLt_bf16_f32 : FVec Ideal S751x2048 .bf16)
      (sitofp .bf16 (constantI S_ 32 0#32) : FVec Ideal S_ .bf16) pads_S751x2048_S768x2048_0170_000 h_S_ (ix2 k j)
      = if h : k.val < 751 then Cm (ix2 ⟨k.val, h⟩ j) else 0 := by
  by_cases h : k.val < 751
  · rw [dif_pos h]
    exact pad_apply_of_inside _ _ _ _ _ pads_S751x2048_S768x2048_0170_000 h_S_ (ix2 k j) (ix2 ⟨k.val, h⟩ j) (fun a => by
      match a with
      | ⟨0, _⟩ => show k.val = 0 + k.val * (0 + 1); omega
      | ⟨1, _⟩ => show j.val = 0 + j.val * (0 + 1); omega)
  · rw [dif_neg h]
    refine (pad_apply_of_not_inside _ _ _ _ _ pads_S751x2048_S768x2048_0170_000 h_S_ (ix2 k j) (0 : Fin 2) ?_).trans ?_
    · show ¬(0 ≤ k.val ∧ (k.val - 0) % (0 + 1) = 0 ∧ (k.val - 0) / (0 + 1) < 751); omega
    · show ((((0#32 : BitVec 32).toInt : ℤ) : ℝ) : EReal) = 0; simp

end Cert.KernelIdeal.Entry

end
-- ==== Proof.LossLaws.lean ====
/-
  Two ways of presenting the same rows to the clipped squared distance. A row may be read out of a block of rows
  (row `p` of the block is row `r` of the array), and the class axis may be padded with zeros from `K` to `K'` classes
  on both the label rows and the centres: a padded class contributes `0 · 0 = 0` to the centre, so the centre, and with
  it the clipped distance, is unchanged. No finiteness is needed: only `0 · 0 = 0` and `x + 0 = x` are used.
-/
import proofs.«120704_j32701880992422_2_alg».proof.Proof.LossSpec

noncomputable section

open scoped BigOperators

namespace CenterLoss

open Idealize.ShloMosaic Idealize.ShloMosaic.ValueIdx

variable {B B' K K' D : ℕ}

/-- Row `p` of a block, with the classes zero-padded from `K` to `K'`, has the clipped distance of the row `r` it is. -/
theorem clipped_of_rows (hK : K ≤ K') (x : (⟨2, ![B, D]⟩ : Shape).Idx → EReal) (L : (⟨2, ![B, K]⟩ : Shape).Idx → EReal)
    (C : (⟨2, ![K, D]⟩ : Shape).Idx → EReal) (x' : (⟨2, ![B', D]⟩ : Shape).Idx → EReal)
    (L' : (⟨2, ![B', K']⟩ : Shape).Idx → EReal) (C' : (⟨2, ![K', D]⟩ : Shape).Idx → EReal) (r : Fin B) (p : Fin B')
    (hx : ∀ j : Fin D, x' (ix2 p j) = x (ix2 r j))
    (hL : ∀ k : Fin K', L' (ix2 p k) = if h : k.val < K then L (ix2 r ⟨k.val, h⟩) else 0)
    (hC : ∀ (k : Fin K') (j : Fin D), C' (ix2 k j) = if h : k.val < K then C (ix2 ⟨k.val, h⟩ j) else 0) :
    clipped x' L' C' p = clipped x L C r := by
  have hc : ∀ j : Fin D, centre L' C' p j = centre L C r j := fun j => by
    unfold centre
    refine sum_zero_padded hK (fun k => L (ix2 r k) * C (ix2 k j)) (fun k => L' (ix2 p k) * C' (ix2 k j))
      (fun k h => ?_) (fun k h => ?_)
    · show L' (ix2 p k) * C' (ix2 k j) = L (ix2 r ⟨k.val, h⟩) * C (ix2 ⟨k.val, h⟩ j)
      rw [hL k, hC k j, dif_pos h, dif_pos h]
    · show L' (ix2 p k) * C' (ix2 k j) = 0
      rw [hL k, hC k j, dif_neg (Nat.not_lt.2 h), dif_neg (Nat.not_lt.2 h)]
      exact mul_zero 0
  unfold clipped sqDist
  simp only [hx, hc]

end CenterLoss

end
-- ==== Proof.Blocks.lean ====
/-
  From blocks to the array of row losses. The grid has `16` points; point `t` is given rows `512·t … 512·t + 511` of the
  features and of the padded labels, and the whole padded centres, and writes back a `[512, 1]` block: the clipped
  squared distances of those rows. Each row's distance over the padded classes is its distance over the `751` real
  classes, so what point `t` writes is block `t` of one array `rowLosses` — entry `(r, 0)` the clipped squared distance
  of row `r` of the arguments — and the `16` blocks tile that `[8192, 1]` array: it ends holding `rowLosses`.
-/
import proofs.«120704_j32701880992422_2_alg».proof.Proof.Gen.KernelIdeal.Frame
import proofs.«120704_j32701880992422_2_alg».proof.Proof.BodyLoss
import proofs.«120704_j32701880992422_2_alg».proof.Proof.Entry
import proofs.«120704_j32701880992422_2_alg».proof.Proof.LossLaws
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The features, the labels and the centres as launched. -/
abbrev feats (c : Dev nD) : FVec Ideal S8192x2048 .f32 := m ((c : Thread nD τ).loc main_arg0)
abbrev labels (c : Dev nD) : FVec Ideal S8192x751 .f32 := m ((c : Thread nD τ).loc main_arg1)
abbrev centres (c : Dev nD) : FVec Ideal S751x2048 .f32 := m ((c : Thread nD τ).loc main_arg2)

/-- The array the region leaves: entry `(r, 0)` is the clipped squared distance of row `r`. -/
def rowLosses (c : Dev nD) : S8192x1.Idx → EReal := fun i =>
  CenterLoss.clipped (B := 8192) (K := 751) (D := 2048) (feats m c) (labels m c) (centres m c) ⟨(i 0).val, idx2_lt0 i⟩

theorem hz : (![0, 0] : Fin 2 → Nat) = fun _ => 0 := funext fun a => by fin_cases a <;> rfl

/-- The printed index maps over the grid: the features', the labels' and the output's blocks move down the rows with
    the point; the centres' block stays. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the feature block at point `t` is row `512·t + p` of the features. -/
theorem feats_block (c : Dev nD) (t : Fin cfg0.N) (p : Fin 512) (j : Fin 2048) (r : Fin 8192) (hr : r.val = t.val * 512 + p.val) :
    (iblk m c 0 t : FVec Ideal S512x2048 .f32) (ix2 p j) = feats m c (ix2 r j) := by
  obtain ⟨e0, e1, -⟩ := idx_facts t
  unfold iblk
  rw [View.read_apply]
  show V m c main_arg0 (((cfg0.win 0).blk t).view.emb (ix2 p j)) = _
  rw [V_main_arg0]
  refine congrArg (feats m c) (funext fun a => Fin.ext ?_)
  match a with
  | ⟨0, _⟩ => show win0_0.index t (0 : Fin 2) * 512 + 1 * p.val = r.val; rw [e0, hr]; omega
  | ⟨1, _⟩ => show win0_0.index t (1 : Fin 2) * 2048 + 1 * j.val = j.val; rw [e1]; omega

/-- Row `p` of the label block at point `t` is row `512·t + p` of the labels, zero past the last class. -/
theorem labels_block (c : Dev nD) (t : Fin cfg0.N) (p : Fin 512) (k : Fin 768) (r : Fin 8192) (hr : r.val = t.val * 512 + p.val) :
    (iblk m c 1 t : FVec Ideal S512x768 .bf16) (ix2 p k) = if h : k.val < 751 then labels m c (ix2 r ⟨k.val, h⟩) else 0 := by
  obtain ⟨-, -, e2, e3, -⟩ := idx_facts t
  unfold iblk
  rw [View.read_apply]
  show V m c main_v2 (((cfg0.win 1).blk t).view.emb (ix2 p k)) = _
  rw [Entry.labels_entry]
  refine Eq.trans (congrArg _ (funext fun a => Fin.ext ?_)) (Entry.padded_labels_apply (labels m c) r k)
  match a with
  | ⟨0, _⟩ => show win0_1.index t (0 : Fin 2) * 512 + 1 * p.val = r.val; rw [e2, hr]; omega
  | ⟨1, _⟩ => show win0_1.index t (1 : Fin 2) * 768 + 1 * k.val = k.val; rw [e3]; omega

/-- The centres block at every point is the whole padded centres: the centres, zero past the last class. -/
theorem centres_block (c : Dev nD) (t : Fin cfg0.N) (k : Fin 768) (j : Fin 2048) :
    (iblk m c 2 t : FVec Ideal S768x2048 .bf16) (ix2 k j) = if h : k.val < 751 then centres m c (ix2 ⟨k.val, h⟩ j) else 0 := by
  obtain ⟨-, -, -, -, e4, e5, -⟩ := idx_facts t
  unfold iblk
  rw [View.read_apply]
  show V m c main_v3 (((cfg0.win 2).blk t).view.emb (ix2 k j)) = _
  rw [Entry.centres_entry]
  refine Eq.trans (congrArg _ (funext fun a => Fin.ext ?_)) (Entry.padded_centres_apply (centres m c) k j)
  match a with
  | ⟨0, _⟩ => show win0_2.index t (0 : Fin 2) * 768 + 1 * k.val = k.val; rw [e4]; omega
  | ⟨1, _⟩ => show win0_2.index t (1 : Fin 2) * 2048 + 1 * j.val = j.val; rw [e5]; omega

/-- What point `t` writes back is block `t` of `rowLosses`. -/
theorem flushed_eq (c : Dev nD) (t : Fin cfg0.N) :
    (dats m 0 c).flushed 3 t = ((cfg0.win 3).blk t).view.read (Elt Ideal) (rowLosses m c) := by
  have hN : cfg0.N = 16 := N_0
  have ht : t.val < 16 := Nat.lt_of_lt_of_eq t.isLt hN
  obtain ⟨-, -, -, -, -, -, e6, e7⟩ := idx_facts t
  show (cfg0.win 3).cut (grid0.coords t) ((dats m 0 c).after 3 t) = _
  rw [after0_3]
  unfold out0_3
  rw [View.canon_unit_zero hz]
  simp only [View.ld_unit_zero (S := S512x768) hz, View.ld_unit_zero (S := S768x2048) hz, View.ld_unit_zero (S := S512x2048) hz]
  funext y
  obtain ⟨p, u, rfl⟩ : ∃ (p : Fin 512) (u : Fin 1), y = ix2 p u := ⟨y 0, y 1, eq_ix2 y⟩
  rw [View.read_apply]
  have hemb : ((cfg0.win 3).blk t).view.emb (ix2 p u) = (ix2 (⟨t.val * 512 + p.val, by omega⟩ : Fin 8192) (0 : Fin 1) : S8192x1.Idx) :=
    funext fun a => Fin.ext (by
      match a with
      | ⟨0, _⟩ => show win0_3.index t (0 : Fin 2) * 512 + 1 * p.val = t.val * 512 + p.val; rw [e6]; omega
      | ⟨1, _⟩ => show win0_3.index t (1 : Fin 2) * 1 + 1 * u.val = 0; rw [e7]; omega)
  show k0_pay1 (F := Ideal) (iblk m c 1 t) (iblk m c 2 t) (iblk m c 0 t) (ix2 p u) = rowLosses m c (((cfg0.win 3).blk t).view.emb (ix2 p u))
  rw [hemb]
  refine (Body.stored_apply (iblk m c 1 t) (iblk m c 2 t) (iblk m c 0 t) p u).trans ?_
  exact CenterLoss.clipped_of_rows (K := 751) (K' := 768) (by omega) (feats m c) (labels m c) (centres m c)
    (iblk m c 0 t) (iblk m c 1 t) (iblk m c 2 t) ⟨t.val * 512 + p.val, by omega⟩ p
    (fun j => feats_block m c t p j _ rfl) (fun k => labels_block m c t p k _ rfl) (fun k j => centres_block m c t k j)

/-- An index of the array is in point `t`'s block iff each coordinate is in the block's range on its axis. -/
theorem mem_blk (t : Fin cfg0.N) (i : S8192x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v4).slice (win0_3.rect t)).set ↔ _
  rw [View.set_slice_whole, Rect.mem_set_unit]
  exact Iff.rfl

/-- Every row is in the block of the point `row / 512`. -/
theorem cover (i : S8192x1.Idx) : ∃ t : Fin cfg0.N, (cfg0.win 3).flush t = true ∧ i ∈ ((cfg0.win 3).blk t).view.set := by
  have hi0 : (i 0).val < 8192 := (i 0).isLt
  have hi1 : (i 1).val < 1 := (i 1).isLt
  have hN : cfg0.N = 16 := N_0
  obtain ⟨t, htv⟩ : ∃ t : Fin cfg0.N, t.val = (i 0).val / 512 :=
    ⟨⟨(i 0).val / 512, Nat.lt_of_lt_of_eq (by omega : (i 0).val / 512 < 16) hN.symm⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; rw [e6, htv]; omega
  | ⟨1, _⟩ => show win0_3.index t (1 : Fin 2) * 1 ≤ (i 1).val ∧ (i 1).val < win0_3.index t (1 : Fin 2) * 1 + 1; rw [e7]; omega

/-- The array of row losses after the run. -/
theorem final (c : Dev nD) : (dats m 0 c).arrAt 3 cfg0.N = rowLosses m c :=
  (dats m 0 c).arrAt_eq_of_cover 3 (rowLosses m c) (fun t _ => flushed_eq m c t) cover

end Cert.KernelIdeal.Blocks

end
-- ==== Proof.Tail.lean ====
/-
  After the region the host sums the array of row losses over both of its axes from the initial value zero and divides
  by the row count. The array is `rowLosses`, so the sum is the sum over the rows of the clipped squared distances and
  the program's result is the centre loss of its arguments. The run of the whole program follows: the result at the
  loss, the three arguments as launched.
-/
import proofs.«120704_j32701880992422_2_alg».proof.Proof.Blocks
import Idealize.ShloMosaic.Lib.StableHlo.Run

noncomputable section

namespace Cert.KernelIdeal.Tail

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- The loss of the arguments as launched. -/
abbrev loss (c : Dev nD) : EReal :=
  CenterLoss.meanLoss (B := 8192) (K := 751) (D := 2048) (Blocks.feats m c) (Blocks.labels m c) (Blocks.centres m c)

/-- The host's sum over both axes and its division, as one function of the array they read. -/
def mean (a : FVec Ideal S8192x1 .f32) : FVec Ideal S_ .f32 :=
  Host.divf (F := Ideal) (Host.reduceAdd (F := Ideal) a (constant (F := Ideal) S_ .f32 0x00000000#32) reducesTo_S8192x1_S_d0_1 h_S_)
    (constant (F := Ideal) S_ .f32 0x46000000#32)

/-- Of the array of row losses it is the loss. -/
theorem mean_rowLosses (c : Dev nD) : mean (Blocks.rowLosses m c) = fun _ => loss m c := by
  funext i
  have hsum : Host.reduceAdd (F := Ideal) (Blocks.rowLosses m c) (constant (F := Ideal) S_ .f32 0x00000000#32) reducesTo_S8192x1_S_d0_1 h_S_ i
      = ∑ b : Fin 8192, CenterLoss.clipped (B := 8192) (K := 751) (D := 2048) (Blocks.feats m c) (Blocks.labels m c) (Blocks.centres m c) b := by
    simp only [Host.reduceAdd, Ideal.hostReduceAdd_def]
    rw [Ideal.hostReduceAdd_total reducesTo_S8192x1_S_d0_1 (fun b => b.elim0) _ _ i, CenterLoss.sum_column]
    show Ideal.ofBits .f32 0x00000000#32 + _ = _
    rw [Ideal.ofBits_zero_f32, zero_add]
    rfl
  show Ideal.div (Host.reduceAdd (F := Ideal) (Blocks.rowLosses m c) (constant (F := Ideal) S_ .f32 0x00000000#32) reducesTo_S8192x1_S_d0_1 h_S_ i) (Ideal.ofBits .f32 0x46000000#32) = _
  rw [hsum]
  rfl

/-- The program's result buffer after the host's last lines: the loss. -/
theorem loss_eq (c : Dev nD) :
    Pipeline.afterTail₀ cfgs (dats m) 0 (V0 m) [hostOps1] c main_v6 = fun _ => loss m c := by
  unfold Pipeline.afterTail₀
  show StableHlo.after hostOps1 _ (Proc.devRef .tc main_v6) = _
  after_results
  have hA : Pipeline.withArrays (cfgs 0).spec c (V0 m c) (fun w => (dats m 0 c).arrAt w (cfgs 0).N) (Proc.devRef .tc main_v4)
      = Blocks.rowLosses m c :=
    (Pipeline.withArrays_arr spec0 launch0.win.arr_inj c _ _ 3).trans (Blocks.final m c)
  exact (congrArg mean hA).trans (mean_rowLosses m c)

/-- The run of the whole program: the result buffer ends at the loss of the arguments, the arguments as launched. -/
theorem run : θ_run defs (onTc (τ := τ) (main (F := Ideal))) ⟨m, fun _ => 0, ρ⟩ fun r => ∀ c : Dev nD,
      r.2.mem ((c : Thread nD τ).loc main_v6) = (fun _ => loss m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨((h c).2 main_v6 (Pipeline.mem_restRefs_of main_v6 (by decide) (by decide))).trans (loss_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Tail

end
-- ==== Proof.lean ====
/-
  The kernel and its reference compute one number, the centre loss of features `x : [8192, 2048]`, one-hot label rows
  `L : [8192, 751]` and class centres `C : [751, 2048]`:

      loss = ( ∑_b  min(hi, max(lo, ∑_j (x(b,j) − ∑_k L(b,k)·C(k,j))²)) ) / 8192 .

  The reference spells this directly. The kernel's program pads the class axis of the labels and of the centres with
  zeros from `751` to `768`, lets each of `16` grid points take `512` rows, form their centres by a matrix product into a
  zero accumulator, subtract, square, sum along the row and clip, and leaves the sum over the rows and the division to
  the host. Over the extended reals the narrowing to bf16 changes no value, a padded class contributes `0 · 0 = 0` to a
  centre, and the two row sums and the two sums over the rows are the same sums; the clip bounds and the divisor are
  the same words on both sides. Only `0 · 0 = 0` and `0 + x = x` are used, so the inputs' finiteness is never opened.

  The three frames are the generated frame runs (the reference's its generated run with the result dropped); the ideal
  pass rewrote nothing, so `preserves` is `True`.
-/
import proofs.«120704_j32701880992422_2_alg».proof.Defs
import proofs.«120704_j32701880992422_2_alg».proof.Proof.Gen.Kernel
import proofs.«120704_j32701880992422_2_alg».proof.Proof.Gen.Kernel.Frame
import proofs.«120704_j32701880992422_2_alg».proof.Proof.Gen.KernelIdeal
import proofs.«120704_j32701880992422_2_alg».proof.Proof.Gen.KernelIdeal.Frame
import proofs.«120704_j32701880992422_2_alg».proof.Proof.Gen.ReferenceIdeal
import proofs.«120704_j32701880992422_2_alg».proof.Proof.Gen.ReferenceIdeal.Run
import proofs.«120704_j32701880992422_2_alg».proof.Proof.Gen.ReferenceIdeal.Read
import proofs.«120704_j32701880992422_2_alg».proof.Proof.Gen.Pre_finite_inputs
import proofs.«120704_j32701880992422_2_alg».proof.Proof.RefLoss
import proofs.«120704_j32701880992422_2_alg».proof.Proof.Tail
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the loss of their arguments, and the arguments agree. -/
theorem algebraic : Cert.algebraic_KernelIdeal_ReferenceIdeal := by
  intro m ρ m' ρ' _ hagree
  refine ⟨_, Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefLoss.result_eq, (hagree c).1, (hagree c).2.1,
    (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
